-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_tau" .f32 0x3FA00000#32 ((16777216 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8x2048x128 .f32) (main_arg1 : FVec F S8x2048x128 .f32) (main_arg2 : FVec F S8x2048x2048 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  main_v13
-- ==== Kernel.lean ====
abbrev S8x2048x128 : Shape := ⟨3, ![8, 2048, 128]⟩
abbrev S8x2048x2048 : Shape := ⟨3, ![8, 2048, 2048]⟩
abbrev S1x256x128 : Shape := ⟨3, ![1, 256, 128]⟩
abbrev S1x2048x128 : Shape := ⟨3, ![1, 2048, 128]⟩
abbrev S1x256x2048 : Shape := ⟨3, ![1, 256, 2048]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x2048, .f32⟩
  | .hbm, ⟨3, _⟩ => ⟨S8x2048x128, .f32⟩
  | .hbm, ⟨4, _⟩ => ⟨S8x2048x2048, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x256x2048, .f32⟩
  | .local _ .vmem, ⟨5, _⟩ => ⟨S1x256x2048, .f32⟩
  | .local _ .vmem, ⟨6, _⟩ => ⟨S1x256x128, .f32⟩
  | .local _ .vmem, ⟨7, _⟩ => ⟨S1x256x128, .f32⟩
  | .local _ .vmem, ⟨8, _⟩ => ⟨S1x256x2048, .f32⟩
  | .local _ .vmem, ⟨9, _⟩ => ⟨S1x256x2048, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  reduces_S256x2048_S256 : S256x2048.Reduces [1] S256
  shapeCasts_S256_S256x1 : S256.ShapeCasts S256x1
  broadcasts_S256x1_S256x2048 : S256x1.Broadcasts S256x2048
  shapeCasts_S256x128_S1x256x128 : S256x128.ShapeCasts S1x256x128
  dot_S256x128_S2048x128_S256x2048_1_1_0_0_n_n_wf : DotDims.WF S256x128 S2048x128 S256x2048 [1] [1] [0] [0] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S8x2048x128.size a
  hwx0_0 : ∀ i : grid0.Coords, EltTy.bits .f32 = 32 ∨ (Rect.block (s := S8x2048x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x2048x2048.size a
  hwx0_2 : ∀ i : grid0.Coords, EltTy.bits .f32 = 32 ∨ (Rect.block (s := S8x2048x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S8x2048x128.size a
  hwx0_3 : ∀ i : grid0.Coords, EltTy.bits .f32 = 32 ∨ (Rect.block (s := S8x2048x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2048x2048.size a
  hwx0_4 : ∀ i : grid0.Coords, EltTy.bits .f32 = 32 ∨ (Rect.block (s := S8x2048x2048) S1x256x2048.size (cc0_transform_4 i) (hinb0_4 i)).WholeWords (EltTy.packing .f32)

variable [Facts₀]

def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x2048, .f32⟩
  | .hbm, ⟨3, _⟩ => ⟨S8x2048x2048, .f32⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Spec.lean ====
/-
  The mathematics both programs compute, stated once over plain functions into the extended reals.

  One attention row: a query row `q` (128 entries), the value matrix `v` of its batch (2048 rows of 128 entries, used both as
  keys and as values) and the row's noise `g` (2048 entries).  The logit of key `s` is `∑ₖ q k · v s k`; the scaled logit is
  `(logit + g s) · (1/τ)`, with `1/τ` the exact reciprocal of the single-precision number nearest 0.8; the weights are the
  softmax of the scaled logits (shifted by their maximum, which is how both programs evaluate it); and entry `h` of the output
  row is `∑ₛ weight s · v s h`.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The reciprocal of the temperature: τ is the single-precision number nearest 0.8, that is 13421773 / 2²⁴. -/
def invTau : EReal := ((16777216 / 13421773 : ℝ) : EReal)

/-- The inner product of a query row with one key row. -/
def dotRow (q vs : Fin 128 → EReal) : EReal := ∑ k : Fin 128, q k * vs k

/-- The scaled logit of key `s`: (q · vₛ + gₛ) / τ. -/
def scaledAt (q : Fin 128 → EReal) (v : Fin 2048 → Fin 128 → EReal) (g : Fin 2048 → EReal) (s : Fin 2048) : EReal :=
  (dotRow q (v s) + g s) * invTau

/-- The maximum of a row of 2048 scaled logits (−∞ is the neutral element). -/
def rowMax (z : Fin 2048 → EReal) : EReal := (Finset.univ : Finset (Fin 2048)).fold max ⊥ z

/-- exp (zₛ − max z). -/
def expAt (z : Fin 2048 → EReal) (s : Fin 2048) : EReal := Ideal.exp (z s - rowMax z)

/-- The softmax denominator ∑ₛ exp (zₛ − max z). -/
def denom (z : Fin 2048 → EReal) : EReal := ∑ s : Fin 2048, expAt z s

/-- The softmax weight of key `s`. -/
def probAt (z : Fin 2048 → EReal) (s : Fin 2048) : EReal := Ideal.div (expAt z s) (denom z)

/-- Entry `h` of the attention output row: ∑ₛ softmax(z)ₛ · v s h, with z the scaled logits of the row. -/
def attnEntry (q : Fin 128 → EReal) (v : Fin 2048 → Fin 128 → EReal) (g : Fin 2048 → EReal) (h : Fin 128) : EReal :=
  ∑ s : Fin 2048, probAt (scaledAt q v g) s * v s h

/-! ## The two result arrays as functions of the three argument arrays -/

abbrev Sqv : Shape := ⟨3, ![8, 2048, 128]⟩
abbrev Sg : Shape := ⟨3, ![8, 2048, 2048]⟩

/-- The logits array: entry (b, t, s) is the inner product of query row (b, t) with value row (b, s). -/
def logits (Q V : Sqv.Idx → EReal) : Sg.Idx → EReal :=
  fun i => dotRow (fun k => Q (ix3 (i 0) (i 1) k)) (fun k => V (ix3 (i 0) (i 2) k))

/-- The attention output array: entry (b, t, h) is entry `h` of the attention row of query (b, t) against batch `b`'s values
    under the noise row (b, t). -/
def attnOut (Q V : Sqv.Idx → EReal) (G : Sg.Idx → EReal) : Sqv.Idx → EReal :=
  fun i => attnEntry (fun k => Q (ix3 (i 0) (i 1) k)) (fun s k => V (ix3 (i 0) s k)) (fun s => G (ix3 (i 0) (i 1) s)) (i 2)

/-! ## The constants' values -/

/-- The pattern of −∞ denotes the bottom of the extended reals. -/
theorem ofBits_negInf : Ideal.ofBits .f32 0xFF800000#32 = ⊥ := by
  simp [Ideal.ofBits, Ideal.ieee]

/-- The pattern 0x3F4CCCCD (the single-precision number nearest 0.8) denotes 13421773 / 2²⁴. -/
theorem ofBits_tau : Ideal.ofBits .f32 0x3F4CCCCD#32 = ((13421773 / 16777216 : ℝ) : EReal) := by
  simp [Ideal.ofBits, Ideal.ieee, -EReal.coe_mul]; norm_num

/-- Dividing by τ is multiplying by its exact reciprocal, on every extended real. -/
theorem div_tau (x : EReal) : Ideal.div x (Ideal.ofBits .f32 0x3F4CCCCD#32) = x * invTau := by
  rw [ofBits_tau, Ideal.div_coe (by norm_num : (13421773 / 16777216 : ℝ) ≠ 0)]
  unfold invTau
  congr 2
  norm_num

/-- −∞ is neutral for the maximum. -/
theorem max_negInf (x : EReal) : max (Ideal.ofBits .f32 0xFF800000#32) x = x := by
  rw [ofBits_negInf]; exact max_eq_right bot_le

end Cert.Attn

end
-- ==== Proof.KernelPayload.lean ====
/-
  What the kernel body computes for one grid point, read at an index.

  The body holds a query block `x0` (one batch, 256 rows of 128 entries), that batch's value block `x1` (2048 rows of 128 entries)
  and the noise block `x2` (256 rows of 2048 entries).  Its first matrix product at (r, s) is the inner product of query row r
  with value row s; it then adds the noise, multiplies by 1/τ, takes each row's maximum, exponentiates the differences, divides
  by each row's sum, and multiplies the resulting weights with the value block.  So the stored output block at (0, r, h) is
  entry h of the attention row of query row r against the value block under noise row r.
-/
import proofs.«149607_j60962765799921_1_alg».proof.Proof.Gen.KernelIdeal.Skeleton
import proofs.«149607_j60962765799921_1_alg».proof.Proof.Spec
import Idealize.ShloMosaic.Lib.Pipeline.Value
import Idealize.ShloMosaic.Lib.ValueLayout
import Idealize.ShloMosaic.PureOps.IdealRules

noncomputable section

namespace Cert.KernelIdeal.Payload

open Cert.KernelIdeal Cert.KernelIdeal.Gen Idealize.ShloMosaic Idealize.ShloMosaic.ValueIdx Cert.Attn

/-! ## Two layout readings: a column of row values -/

/-- A vector of `a` entries cast to one column reads, at (i, u), entry i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The named constant -/

/-- The kernel's scaling constant denotes the exact reciprocal of τ. -/
theorem named_invTau : Named.named (F := Ideal) Cert.KernelIdeal.κ "inv_tau" (φ := .f32) 0x3FA00000#32 = invTau :=
  IdealRules.named_const.ideal_named_scalar _ _ _ _ rfl

/-! ## The value block and the first matrix product -/

/-- The value block as the body uses it: row s, entry k. -/
theorem pay1_at (x1 : Vec Ideal S1x2048x128 .f32) (s : Fin 2048) (k : Fin 128) :
    k0_pay1 (F := Ideal) x1 (ix2 s k) = x1 (ix3 (0 : Fin 1) s k) := by
  unfold k0_pay1
  exact shapeCast_1ab_ab_apply x1 _ s k

theorem lhsA_0 (i : S256x2048.Idx) (q : dot_S256x128_S2048x128_S256x2048_1_1_0_0_n_n.contr.Idx) :
    (dot_S256x128_S2048x128_S256x2048_1_1_0_0_n_n.lhsIdx i q 0).val = (i 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl
theorem lhsA_1 (i : S256x2048.Idx) (q : dot_S256x128_S2048x128_S256x2048_1_1_0_0_n_n.contr.Idx) :
    (dot_S256x128_S2048x128_S256x2048_1_1_0_0_n_n.lhsIdx i q 1).val = (q ⟨0, by decide⟩).val :=
  dot_S256x128_S2048x128_S256x2048_1_1_0_0_n_n.lhsIdx_val_of_single rfl i q
theorem rhsA_0 (i : S256x2048.Idx) (q : dot_S256x128_S2048x128_S256x2048_1_1_0_0_n_n.contr.Idx) :
    (dot_S256x128_S2048x128_S256x2048_1_1_0_0_n_n.rhsIdx i q 0).val = (i 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl
theorem rhsA_1 (i : S256x2048.Idx) (q : dot_S256x128_S2048x128_S256x2048_1_1_0_0_n_n.contr.Idx) :
    (dot_S256x128_S2048x128_S256x2048_1_1_0_0_n_n.rhsIdx i q 1).val = (q ⟨0, by decide⟩).val :=
  dot_S256x128_S2048x128_S256x2048_1_1_0_0_n_n.rhsIdx_val_of_single rfl i q

/-- The first matrix product at (r, s): the inner product of query row r with value row s. -/
theorem pay2_at (x0 : Vec Ideal S1x256x128 .f32) (x1 : Vec Ideal S1x2048x128 .f32) (r : Fin 256) (s : Fin 2048) :
    k0_pay2 (F := Ideal) x0 x1 (ix2 r s)
      = dotRow (fun k => x0 (ix3 (0 : Fin 1) r k)) (fun k => x1 (ix3 (0 : Fin 1) s k)) := by
  unfold k0_pay2
  refine (Ideal.matmul_constant_zero_apply dot_S256x128_S2048x128_S256x2048_1_1_0_0_n_n none _ _ (ix2 r s)).trans ?_
  rw [← Equiv.sum_comp (contrEquiv1 dot_S256x128_S2048x128_S256x2048_1_1_0_0_n_n 128 rfl rfl).symm]
  unfold dotRow
  refine Finset.sum_congr rfl fun k _ => ?_
  have hk := contrEquiv1_symm_val dot_S256x128_S2048x128_S256x2048_1_1_0_0_n_n 128 rfl rfl k
  have el : dot_S256x128_S2048x128_S256x2048_1_1_0_0_n_n.lhsIdx (ix2 r s) ((contrEquiv1 dot_S256x128_S2048x128_S256x2048_1_1_0_0_n_n 128 rfl rfl).symm k) = ix2 r k := funext fun a => Fin.ext (by
    match a with
    | ⟨0, _⟩ => exact lhsA_0 _ _
    | ⟨1, _⟩ => exact (lhsA_1 _ _).trans hk)
  have er : dot_S256x128_S2048x128_S256x2048_1_1_0_0_n_n.rhsIdx (ix2 r s) ((contrEquiv1 dot_S256x128_S2048x128_S256x2048_1_1_0_0_n_n 128 rfl rfl).symm k) = ix2 s k := funext fun a => Fin.ext (by
    match a with
    | ⟨0, _⟩ => exact rhsA_0 _ _
    | ⟨1, _⟩ => exact (rhsA_1 _ _).trans hk)
  rw [el, er, pay1_at]
  exact congrArg (· * x1 (ix3 (0 : Fin 1) s k)) (shapeCast_1ab_ab_apply x0 _ r k)

/-! ## The rows of scaled logits, their exponentials and the weights, as the body spells them -/

/-- The scaled logits of the grid point: (first product + noise) · (1/τ). -/
def zvec (x0 : Vec Ideal S1x256x128 .f32) (x1 : Vec Ideal S1x2048x128 .f32) (x2 : Vec Ideal S1x256x2048 .f32) : FVec Ideal S256x2048 .f32 :=
  mulf (addf (k0_pay2 (F := Ideal) x0 x1) (shapeCast S256x2048 x2 Facts₀.shapeCasts_S1x256x2048_S256x2048))
    (broadcast S256x2048 (Named.named (F := Ideal) κ "inv_tau" (φ := .f32) 0x3FA00000#32))

/-- Each entry minus its row's maximum, exponentiated. -/
def evec (z : FVec Ideal S256x2048 .f32) : FVec Ideal S256x2048 .f32 :=
  exp (subf z (broadcastTo S256x2048 (shapeCast S256x1
    (maximumf (broadcast S256 (Scalar.ofBits (F := Ideal) .f32 0xFF800000#32))
      (multiReduction .maximumf [1] S256 z 0xFF800000#32 Facts₀.reduces_S256x2048_S256 (.inl rfl) rfl))
    Facts₀.shapeCasts_S256_S256x1) Facts₀.broadcasts_S256x1_S256x2048))

/-- Each entry divided by its row's sum. -/
def pvec (e : FVec Ideal S256x2048 .f32) : FVec Ideal S256x2048 .f32 :=
  divf e (broadcastTo S256x2048 (shapeCast S256x1
    (multiReduction .add [1] S256 e 0x00000000#32 Facts₀.reduces_S256x2048_S256 (.inl rfl) rfl)
    Facts₀.shapeCasts_S256_S256x1) Facts₀.broadcasts_S256x1_S256x2048)

/-- The stored output block is the weights times the value block, with a leading unit axis. -/
theorem pay4_eq (x0 : Vec Ideal S1x256x128 .f32) (x1 : Vec Ideal S1x2048x128 .f32) (x2 : Vec Ideal S1x256x2048 .f32) :
    k0_pay4 (F := Ideal) x0 x1 x2
      = shapeCast S1x256x128 (matmul dot_S256x2048_S2048x128_S256x128_1_0_0_1_n_n none
          (truncf .bf16 (pvec (evec (zvec x0 x1 x2))) Facts₀.bitsLt_bf16_f32) (k0_pay1 (F := Ideal) x1)
          (constant S256x128 .f32 0x00000000#32)) Facts₀.shapeCasts_S256x128_S1x256x128 := rfl

theorem zvec_at (x0 : Vec Ideal S1x256x128 .f32) (x1 : Vec Ideal S1x2048x128 .f32) (x2 : Vec Ideal S1x256x2048 .f32)
    (r : Fin 256) (s : Fin 2048) :
    zvec x0 x1 x2 (ix2 r s)
      = scaledAt (fun k => x0 (ix3 (0 : Fin 1) r k)) (fun s k => x1 (ix3 (0 : Fin 1) s k)) (fun s => x2 (ix3 (0 : Fin 1) r s)) s := by
  unfold zvec scaledAt
  show (k0_pay2 (F := Ideal) x0 x1 (ix2 r s) + shapeCast S256x2048 x2 Facts₀.shapeCasts_S1x256x2048_S256x2048 (ix2 r s))
      * Named.named (F := Ideal) κ "inv_tau" (φ := .f32) 0x3FA00000#32 = _
  rw [pay2_at, shapeCast_1ab_ab_apply x2 _ r s, named_invTau]

/-- The reduced index r with column s put back is (r, s). -/
theorem lift_ix2 (r : Fin 256) (k : Fin (S256x2048.size 1)) :
    (Facts₀.reduces_S256x2048_S256 : S256x2048.Reduces [1] S256).lift (ix1 r) k = ix2 r (⟨k.val, k.isLt⟩ : Fin 2048) :=
  funext fun a => Fin.ext (by match a with | ⟨0, _⟩ => rfl | ⟨1, _⟩ => rfl)

/-- A row's maximum, as the body's lane reduction from −∞ takes it. -/
theorem rowMax_at (z : FVec Ideal S256x2048 .f32) (r : Fin 256) :
    multiReduction .maximumf [1] S256 z 0xFF800000#32 Facts₀.reduces_S256x2048_S256 (.inl rfl) rfl (ix1 r)
      = rowMax (fun s => z (ix2 r s)) := by
  refine (Ideal.multiReduction_maximumf_single z 0xFF800000#32 Facts₀.reduces_S256x2048_S256 (.inl rfl) rfl (ix1 r)).trans ?_
  have hf : (z ∘ (Facts₀.reduces_S256x2048_S256 : S256x2048.Reduces [1] S256).lift (ix1 r)) = fun s : Fin 2048 => z (ix2 r s) :=
    funext fun k => congrArg z (lift_ix2 r k)
  unfold rowMax
  show Finset.fold max (Ideal.ofBits .f32 0xFF800000#32) _ (Finset.univ : Finset (Fin 2048)) = _
  rw [ofBits_negInf]
  exact congrArg (fun f => Finset.fold max (⊥ : EReal) f (Finset.univ : Finset (Fin 2048))) hf

/-- A row's sum, as the body's lane reduction from 0 takes it. -/
theorem rowSum_at (e : FVec Ideal S256x2048 .f32) (r : Fin 256) :
    multiReduction .add [1] S256 e 0x00000000#32 Facts₀.reduces_S256x2048_S256 (.inl rfl) rfl (ix1 r)
      = ∑ s : Fin 2048, e (ix2 r s) := by
  refine (Ideal.multiReduction_add_single e 0x00000000#32 Facts₀.reduces_S256x2048_S256 (.inl rfl) rfl (ix1 r)).trans ?_
  exact Finset.sum_congr rfl fun k _ => congrArg e (lift_ix2 r k)

theorem evec_at (z : FVec Ideal S256x2048 .f32) (r : Fin 256) (s : Fin 2048) :
    evec z (ix2 r s) = expAt (fun s' => z (ix2 r s')) s := by
  unfold evec expAt
  refine congrArg (fun mx => Ideal.exp (z (ix2 r s) - mx)) ?_
  refine (broadcastTo_a1_ab_apply _ _ r s).trans ?_
  refine (shapeCast_a_a1_apply _ _ r 0).trans ?_
  refine (max_negInf _).trans ?_
  exact rowMax_at z r

theorem pvec_at (e : FVec Ideal S256x2048 .f32) (r : Fin 256) (s : Fin 2048) :
    pvec e (ix2 r s) = Ideal.div (e (ix2 r s)) (∑ s' : Fin 2048, e (ix2 r s')) := by
  unfold pvec
  refine congrArg (fun d => Ideal.div (e (ix2 r s)) d) ?_
  refine (broadcastTo_a1_ab_apply _ _ r s).trans ?_
  refine (shapeCast_a_a1_apply _ _ r 0).trans ?_
  exact rowSum_at e r

/-- The softmax weight (r, s) of the grid point. -/
theorem prob_at (x0 : Vec Ideal S1x256x128 .f32) (x1 : Vec Ideal S1x2048x128 .f32) (x2 : Vec Ideal S1x256x2048 .f32)
    (r : Fin 256) (s : Fin 2048) :
    pvec (evec (zvec x0 x1 x2)) (ix2 r s)
      = probAt (scaledAt (fun k => x0 (ix3 (0 : Fin 1) r k)) (fun s k => x1 (ix3 (0 : Fin 1) s k))
          (fun s => x2 (ix3 (0 : Fin 1) r s))) s := by
  have hz : (fun s' : Fin 2048 => zvec x0 x1 x2 (ix2 r s'))
      = scaledAt (fun k => x0 (ix3 (0 : Fin 1) r k)) (fun s k => x1 (ix3 (0 : Fin 1) s k)) (fun s => x2 (ix3 (0 : Fin 1) r s)) :=
    funext fun s' => zvec_at x0 x1 x2 r s'
  rw [pvec_at]
  simp only [evec_at]
  rw [hz]
  rfl

theorem lhsB_0 (i : S256x128.Idx) (q : dot_S256x2048_S2048x128_S256x128_1_0_0_1_n_n.contr.Idx) :
    (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
theorem lhsB_1 (i : S256x128.Idx) (q : dot_S256x2048_S2048x128_S256x128_1_0_0_1_n_n.contr.Idx) :
    (dot_S256x2048_S2048x128_S256x128_1_0_0_1_n_n.lhsIdx i q 1).val = (q ⟨0, by decide⟩).val :=
  dot_S256x2048_S2048x128_S256x128_1_0_0_1_n_n.lhsIdx_val_of_single rfl i q
theorem rhsB_0 (i : S256x128.Idx) (q : dot_S256x2048_S2048x128_S256x128_1_0_0_1_n_n.contr.Idx) :
    (dot_S256x2048_S2048x128_S256x128_1_0_0_1_n_n.rhsIdx i q 0).val = (q ⟨0, by decide⟩).val :=
  dot_S256x2048_S2048x128_S256x128_1_0_0_1_n_n.rhsIdx_val_of_single rfl i q
theorem rhsB_1 (i : S256x128.Idx) (q : dot_S256x2048_S2048x128_S256x128_1_0_0_1_n_n.contr.Idx) :
    (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl

/-- The stored output block at (0, r, h): entry h of the attention row of query row r. -/
theorem pay4_at (x0 : Vec Ideal S1x256x128 .f32) (x1 : Vec Ideal S1x2048x128 .f32) (x2 : Vec Ideal S1x256x2048 .f32)
    (r : Fin 256) (h : Fin 128) :
    k0_pay4 (F := Ideal) x0 x1 x2 (ix3 (0 : Fin 1) r h)
      = attnEntry (fun k => x0 (ix3 (0 : Fin 1) r k)) (fun s k => x1 (ix3 (0 : Fin 1) s k))
          (fun s => x2 (ix3 (0 : Fin 1) r s)) h := by
  rw [pay4_eq]
  refine (shapeCast_ab_1ab_apply _ _ (0 : Fin 1) r h).trans ?_
  refine (Ideal.matmul_constant_zero_apply dot_S256x2048_S2048x128_S256x128_1_0_0_1_n_n none _ _ (ix2 r h)).trans ?_
  rw [← Equiv.sum_comp (contrEquiv1 dot_S256x2048_S2048x128_S256x128_1_0_0_1_n_n 2048 rfl rfl).symm]
  unfold attnEntry
  refine Finset.sum_congr rfl fun k _ => ?_
  have hk := contrEquiv1_symm_val dot_S256x2048_S2048x128_S256x128_1_0_0_1_n_n 2048 rfl rfl k
  have el : dot_S256x2048_S2048x128_S256x128_1_0_0_1_n_n.lhsIdx (ix2 r h) ((contrEquiv1 dot_S256x2048_S2048x128_S256x128_1_0_0_1_n_n 2048 rfl rfl).symm k) = ix2 r k := funext fun a => Fin.ext (by
    match a with
    | ⟨0, _⟩ => exact lhsB_0 _ _
    | ⟨1, _⟩ => exact (lhsB_1 _ _).trans hk)
  have er : dot_S256x2048_S2048x128_S256x128_1_0_0_1_n_n.rhsIdx (ix2 r h) ((contrEquiv1 dot_S256x2048_S2048x128_S256x128_1_0_0_1_n_n 2048 rfl rfl).symm k) = ix2 k h := funext fun a => Fin.ext (by
    match a with
    | ⟨0, _⟩ => exact (rhsB_0 _ _).trans hk
    | ⟨1, _⟩ => exact rhsB_1 _ _)
  rw [el, er, pay1_at]
  exact congrArg (· * x1 (ix3 (0 : Fin 1) k h)) (prob_at x0 x1 x2 r k)

end Cert.KernelIdeal.Payload

end
-- ==== Proof.Blocks.lean ====
/-
  From the blocks each grid point writes back to the two whole result arrays.

  The grid has 8 × 8 points; point t works on batch b = t / 8 and on the row tile tt = t % 8, that is on the 256 query rows
  tt·256 … tt·256 + 255 of batch b. At that point the query block is Q[b, tt·256 + ·, ·] (256 × 128), the value block is all of
  V[b, ·, ·] (2048 × 128), the noise block is G[b, tt·256 + ·, ·] (256 × 2048); the body leaves, in the logits block, the inner
  products of the query block's rows with the value block's rows, and in the output block the attention rows of the query
  block's rows against the value block under the noise block's rows. Both are therefore the restriction to rows
  tt·256 … tt·256 + 255 of batch b of ONE function of the three whole argument arrays (`Cert.Attn.logits`, `Cert.Attn.attnOut`),
  and since the 64 blocks of either result tile its array, the array ends holding that function.
-/
import proofs.«149607_j60962765799921_1_alg».proof.Proof.Gen.KernelIdeal.Value
import proofs.«149607_j60962765799921_1_alg».proof.Proof.KernelPayload
import proofs.«149607_j60962765799921_1_alg».proof.Proof.Spec

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Attn

variable (m : (ℓ : Loc nD τ sig) → Buf (Elt Ideal) ℓ) (ρ : Dev nD → PrngReg)

/-! ## Where each block sits -/

/-- The zero offsets of the body's whole-block loads and stores, as the constant function. -/
theorem hz : (![0, 0, 0] : Fin 3 → Nat) = fun _ => 0 := funext fun a => by fin_cases a <;> rfl

/-- The five index maps at grid point `t`, decided over the 64 points: the point's batch is `t / 8` and its row tile is
    `t % 8`; the query block, the noise block and both result blocks have block index (t / 8, t % 8, 0), the value block
    (t / 8, 0, 0). -/
theorem idx_facts : ∀ t : Fin cfg0.N,
      win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

/-- The point whose blocks hold row `row` of batch `b`: `b · 8 + row / 256`. -/
theorem point_of (b : Nat) (row : Nat) (hb : b < 8) (hrow : row < 2048) : ∃ t : Fin cfg0.N, t.val = b * 8 + row / 256 :=
  ⟨⟨b * 8 + row / 256, lt_of_lt_of_eq (by omega : b * 8 + row / 256 < 64) N_0.symm⟩, rfl⟩

/-! ## The three input blocks at a point, entry by entry

An element of a block sits in its array, on each axis, at block index × block size + its coordinate inside the block. -/

/-- Entry (0, r, k) of the query block at point `t` is Q[t / 8, (t % 8) · 256 + r, k]. -/
theorem qblk_at (c : Dev nD) (t : Fin cfg0.N) (r : Fin 256) (k : Fin 128) (i : S8x2048x128.Idx)
    (h0 : (i 0).val = t.val / 8) (h1 : (i 1).val = t.val % 8 * 256 + r.val) (h2 : (i 2).val = k.val) :
    (iblk m c 0 t : Vec Ideal S1x256x128 .f32) (ix3 (0 : Fin 1) r k) = (V m c main_arg0 : S8x2048x128.Idx → EReal) i := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * (0 : Nat) = (i 0).val; omega
  | ⟨1, _⟩ => show win0_0.index t (1 : Fin 3) * 256 + 1 * r.val = (i 1).val; omega
  | ⟨2, _⟩ => show win0_0.index t (2 : Fin 3) * 128 + 1 * k.val = (i 2).val; omega

/-- Entry (0, s, k) of the value block at point `t` is V[t / 8, s, k]: the block is the whole batch. -/
theorem vblk_at (c : Dev nD) (t : Fin cfg0.N) (s : Fin 2048) (k : Fin 128) (i : S8x2048x128.Idx)
    (h0 : (i 0).val = t.val / 8) (h1 : (i 1).val = s.val) (h2 : (i 2).val = k.val) :
    (iblk m c 1 t : Vec Ideal S1x2048x128 .f32) (ix3 (0 : Fin 1) s k) = (V m c main_arg1 : S8x2048x128.Idx → EReal) i := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * (0 : Nat) = (i 0).val; omega
  | ⟨1, _⟩ => show win0_1.index t (1 : Fin 3) * 2048 + 1 * s.val = (i 1).val; omega
  | ⟨2, _⟩ => show win0_1.index t (2 : Fin 3) * 128 + 1 * k.val = (i 2).val; omega

/-- Entry (0, r, s) of the noise block at point `t` is G[t / 8, (t % 8) · 256 + r, s]. -/
theorem gblk_at (c : Dev nD) (t : Fin cfg0.N) (r : Fin 256) (s : Fin 2048) (i : S8x2048x2048.Idx)
    (h0 : (i 0).val = t.val / 8) (h1 : (i 1).val = t.val % 8 * 256 + r.val) (h2 : (i 2).val = s.val) :
    (iblk m c 2 t : Vec Ideal S1x256x2048 .f32) (ix3 (0 : Fin 1) r s) = (V m c main_arg2 : S8x2048x2048.Idx → EReal) i := by
  obtain ⟨-, -, -, -, -, -, e0, e1, e2, -⟩ := idx_facts t
  unfold iblk
  rw [View.read_apply]
  show V m c main_arg2 _ = V m c main_arg2 _
  congr 1
  funext a
  apply Fin.ext
  match a with
  | ⟨0, _⟩ => show win0_2.index t (0 : Fin 3) * 1 + 1 * (0 : Nat) = (i 0).val; omega
  | ⟨1, _⟩ => show win0_2.index t (1 : Fin 3) * 256 + 1 * r.val = (i 1).val; omega
  | ⟨2, _⟩ => show win0_2.index t (2 : Fin 3) * 2048 + 1 * s.val = (i 2).val; omega

/-! ## The logits array -/

/-- What the body leaves in the logits block, at (0, r, s): the inner product of row `r` of the query block with row `s`
    of the value block (the one store's payload is the first matrix product with a unit axis put in front). -/
theorem out4_at (x0 : Vec Ideal S1x256x128 .f32) (x1 : Vec Ideal S1x2048x128 .f32) (x2 : Vec Ideal S1x256x2048 .f32)
    (r : Fin 256) (s : Fin 2048) :
    out0_4 x0 x1 x2 (ix3 (0 : Fin 1) r s) = dotRow (fun k => x0 (ix3 (0 : Fin 1) r k)) (fun k => x1 (ix3 (0 : Fin 1) s k)) := by
  unfold out0_4
  rw [Value.canon4_eq]
  show k0_pay2 (View.ld x0 r0_0) (View.ld x1 r0_1) (Value.ix4_0 (ix3 (0 : Fin 1) r s)) = _
  rw [View.ld_unit_zero (S := S1x256x128) hz, View.ld_unit_zero (S := S1x2048x128) hz]
  have e : Value.ix4_0 (ix3 (0 : Fin 1) r s) = ix2 r s := by
    funext a
    match a with
    | ⟨0, _⟩ => rfl
    | ⟨1, _⟩ => rfl
  rw [e]
  exact Payload.pay2_at x0 x1 r s

/-- Element (0, r, s) of the logits block of point `t` sits at (t / 8, (t % 8) · 256 + r, s) in the logits array. -/
theorem emb4_at (t : Fin cfg0.N) (r : Fin 256) (s : Fin 2048) :
    ((((cfg0.win 4).blk t).view.emb (ix3 (0 : Fin 1) r s) : S8x2048x2048.Idx) 0).val = t.val / 8
    ∧ ((((cfg0.win 4).blk t).view.emb (ix3 (0 : Fin 1) r s) : S8x2048x2048.Idx) 1).val = t.val % 8 * 256 + r.val
    ∧ ((((cfg0.win 4).blk t).view.emb (ix3 (0 : Fin 1) r s) : S8x2048x2048.Idx) 2).val = s.val := by
  obtain ⟨-, -, -, -, -, -, -, -, -, -, -, -, e0, e1, e2⟩ := idx_facts t
  refine ⟨?_, ?_, ?_⟩
  · show win0_4.index t (0 : Fin 3) * 1 + 1 * (0 : Nat) = t.val / 8; omega
  · show win0_4.index t (1 : Fin 3) * 256 + 1 * r.val = t.val % 8 * 256 + r.val; omega
  · show win0_4.index t (2 : Fin 3) * 2048 + 1 * s.val = s.val; omega

/-- What point `t` writes back to the logits array is block `t` of `logits Q V`: at (0, r, s) both sides are the inner
    product of query row (t / 8, (t % 8) · 256 + r) with value row (t / 8, s). -/
theorem flushed4_eq (c : Dev nD) (t : Fin cfg0.N) :
    (dats m 0 c).flushed 4 t
      = ((cfg0.win 4).blk t).view.read (Elt Ideal) (logits (V m c main_arg0) (V m c main_arg1)) := by
  rw [Value.flushed4]
  refine funext fun (y : S1x256x2048.Idx) => ?_
  obtain ⟨a, r, s, rfl⟩ : ∃ (a : Fin 1) (r : Fin 256) (s : Fin 2048), y = ix3 a r s := ⟨y 0, y 1, y 2, eq_ix3 y⟩
  obtain rfl : a = 0 := Subsingleton.elim _ _
  refine (out4_at (iblk m c 0 t) (iblk m c 1 t) (iblk m c 2 t) r s).trans ?_
  obtain ⟨h0, h1, h2⟩ := emb4_at t r s
  show _ = logits (V m c main_arg0) (V m c main_arg1) (((cfg0.win 4).blk t).view.emb (ix3 (0 : Fin 1) r s))
  unfold logits
  congr 1
  · funext k
    exact qblk_at m c t r k _ h0 h1 rfl
  · funext k
    exact vblk_at m c t s k _ h0 h2 rfl

/-- An index of the logits array is in point `t`'s block iff each coordinate is in the block's range on its axis. -/
theorem mem_blk4 (t : Fin cfg0.N) (i : S8x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v0_1).slice (win0_4.rect t)).set ↔ _
  rw [View.set_slice_whole, Rect.mem_set_unit]
  exact Iff.rfl

/-- The 64 blocks tile the logits array: index (b, row, s) is in the block of point b · 8 + row / 256. -/
theorem cover4 (i : S8x2048x2048.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  obtain ⟨t, ht⟩ := point_of (i 0).val (i 1).val hi0 hi1
  refine ⟨t, flush0_4 t, ?_⟩
  rw [mem_blk4]
  obtain ⟨-, -, -, -, -, -, -, -, -, -, -, -, e0, e1, e2⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- The logits array after the run: entry (b, t, s) is the inner product of query row (b, t) with value row (b, s). -/
theorem final4 (c : Dev nD) :
    (dats m 0 c).arrAt 4 cfg0.N = logits (V m c main_arg0) (V m c main_arg1) :=
  (dats m 0 c).arrAt_eq_of_cover 4 (logits (V m c main_arg0) (V m c main_arg1)) (fun t _ => flushed4_eq m c t) cover4

/-! ## The attention output array -/

/-- An attention entry depends on its row's query, values and noise only through their entries. -/
theorem attnEntry_congr {q q' : Fin 128 → EReal} {v v' : Fin 2048 → Fin 128 → EReal} {g g' : Fin 2048 → EReal} {h h' : Fin 128}
    (hq : ∀ k, q k = q' k) (hv : ∀ s k, v s k = v' s k) (hg : ∀ s, g s = g' s) (hh : h = h') :
    attnEntry q v g h = attnEntry q' v' g' h' := by
  obtain rfl : q = q' := funext hq
  obtain rfl : v = v' := funext fun s => funext (hv s)
  obtain rfl : g = g' := funext hg
  rw [hh]

/-- What the body leaves in the output block, at (0, r, h): entry `h` of the attention row of row `r` of the query block
    against the value block under row `r` of the noise block. -/
theorem out3_at (x0 : Vec Ideal S1x256x128 .f32) (x1 : Vec Ideal S1x2048x128 .f32) (x2 : Vec Ideal S1x256x2048 .f32)
    (r : Fin 256) (h : Fin 128) :
    out0_3 x0 x1 x2 (ix3 (0 : Fin 1) r h)
      = attnEntry (fun k => x0 (ix3 (0 : Fin 1) r k)) (fun s k => x1 (ix3 (0 : Fin 1) s k)) (fun s => x2 (ix3 (0 : Fin 1) r s)) h := by
  unfold out0_3
  rw [View.canon_unit_zero hz]
  rw [View.ld_unit_zero (S := S1x256x128) hz, View.ld_unit_zero (S := S1x2048x128) hz, View.ld_unit_zero (S := S1x256x2048) hz]
  exact Payload.pay4_at x0 x1 x2 r h

/-- Element (0, r, h) of the output block of point `t` sits at (t / 8, (t % 8) · 256 + r, h) in the output array. -/
theorem emb3_at (t : Fin cfg0.N) (r : Fin 256) (h : Fin 128) :
    ((((cfg0.win 3).blk t).view.emb (ix3 (0 : Fin 1) r h) : S8x2048x128.Idx) 0).val = t.val / 8
    ∧ ((((cfg0.win 3).blk t).view.emb (ix3 (0 : Fin 1) r h) : S8x2048x128.Idx) 1).val = t.val % 8 * 256 + r.val
    ∧ ((((cfg0.win 3).blk t).view.emb (ix3 (0 : Fin 1) r h) : S8x2048x128.Idx) 2).val = h.val := by
  obtain ⟨-, -, -, -, -, -, -, -, -, e0, e1, e2, -⟩ := idx_facts t
  refine ⟨?_, ?_, ?_⟩
  · show win0_3.index t (0 : Fin 3) * 1 + 1 * (0 : Nat) = t.val / 8; omega
  · show win0_3.index t (1 : Fin 3) * 256 + 1 * r.val = t.val % 8 * 256 + r.val; omega
  · show win0_3.index t (2 : Fin 3) * 128 + 1 * h.val = h.val; omega

/-- What point `t` writes back to the output array is block `t` of `attnOut Q V G`: at (0, r, h) both sides are entry `h` of
    the attention row of query row (t / 8, (t % 8) · 256 + r) against batch t / 8's values under noise row
    (t / 8, (t % 8) · 256 + r). -/
theorem flushed3_eq (c : Dev nD) (t : Fin cfg0.N) :
    (dats m 0 c).flushed 3 t
      = ((cfg0.win 3).blk t).view.read (Elt Ideal) (attnOut (V m c main_arg0) (V m c main_arg1) (V m c main_arg2)) := by
  rw [Value.flushed3]
  refine funext fun (y : S1x256x128.Idx) => ?_
  obtain ⟨a, r, h, rfl⟩ : ∃ (a : Fin 1) (r : Fin 256) (h : Fin 128), y = ix3 a r h := ⟨y 0, y 1, y 2, eq_ix3 y⟩
  obtain rfl : a = 0 := Subsingleton.elim _ _
  refine (out3_at (iblk m c 0 t) (iblk m c 1 t) (iblk m c 2 t) r h).trans ?_
  obtain ⟨h0, h1, h2⟩ := emb3_at t r h
  show _ = attnOut (V m c main_arg0) (V m c main_arg1) (V m c main_arg2) (((cfg0.win 3).blk t).view.emb (ix3 (0 : Fin 1) r h))
  unfold attnOut
  exact attnEntry_congr (fun k => qblk_at m c t r k _ h0 h1 rfl) (fun s k => vblk_at m c t s k _ h0 rfl rfl)
    (fun s => gblk_at m c t r s _ h0 h1 rfl) (Fin.ext h2.symm)

/-- An index of the output array is in point `t`'s block iff each coordinate is in the block's range on its axis. -/
theorem mem_blk3 (t : Fin cfg0.N) (i : S8x2048x128.Idx) :
    i ∈ ((cfg0.win 3).blk t).view.set ↔ ∀ a : Fin 3, win0_3.index t a * S1x256x128.size a ≤ (i a).val
      ∧ (i a).val < win0_3.index t a * S1x256x128.size a + S1x256x128.size a := by
  show i ∈ ((View.whole main_v0_0).slice (win0_3.rect t)).set ↔ _
  rw [View.set_slice_whole, Rect.mem_set_unit]
  exact Iff.rfl

/-- The 64 blocks tile the output array: index (b, row, h) is in the block of point b · 8 + row / 256. -/
theorem cover3 (i : S8x2048x128.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 128 := (i 2).isLt
  obtain ⟨t, ht⟩ := point_of (i 0).val (i 1).val hi0 hi1
  refine ⟨t, flush0_3 t, ?_⟩
  rw [mem_blk3]
  obtain ⟨-, -, -, -, -, -, -, -, -, e0, e1, e2, -⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 128 ≤ (i 2).val ∧ (i 2).val < win0_3.index t (2 : Fin 3) * 128 + 128; omega

/-- The output array after the run: entry (b, t, h) is entry `h` of the attention row of query (b, t) against batch `b`'s
    values under noise row (b, t). -/
theorem final3 (c : Dev nD) :
    (dats m 0 c).arrAt 3 cfg0.N = attnOut (V m c main_arg0) (V m c main_arg1) (V m c main_arg2) :=
  (dats m 0 c).arrAt_eq_of_cover 3 (attnOut (V m c main_arg0) (V m c main_arg1) (V m c main_arg2))
    (fun t _ => flushed3_eq m c t) cover3

/-! ## The run, read -/

/-- Every run of the program ends with the output array at `attnOut Q V G`, the logits array at `logits Q V` — Q, V, G the
    three argument arrays as launched — and the three arguments unchanged. -/
theorem run : θ_run defs (onTc (τ := τ) (main (F := Ideal))) ⟨m, fun _ => 0, ρ⟩ fun r => ∀ c : Dev nD,
      r.2.mem ((c : Thread nD τ).loc main_v0_0)
        = attnOut (m ((c : Thread nD τ).loc main_arg0)) (m ((c : Thread nD τ).loc main_arg1)) (m ((c : Thread nD τ).loc main_arg2))
      ∧ r.2.mem ((c : Thread nD τ).loc main_v0_1)
        = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Blocks

end
-- ==== Proof.RefIsSpec.lean ====
/-
  The reference computes the specification.

  The reference program is a chain of whole-array operations: the logits Q·Vᵀ, the noise added, the division by the
  temperature, the row maximum (a fold over the key axis started from −∞, then one more maximum with −∞), the shifted
  exponentials, their row sums (started from 0), the quotient, and the product with V.  Read at one index (b, t, s) of
  the square arrays, (b, t) of the row arrays, (b, t, h) of the result, each stage is the corresponding function of the
  specification applied to the query row (b, t), the value rows of batch b and the noise row (b, t).  The two theorems
  at the end say so for the two results.
-/
import proofs.«149607_j60962765799921_1_alg».proof.Proof.Gen.ReferenceIdeal.Read
import proofs.«149607_j60962765799921_1_alg».proof.Proof.Spec
import Idealize.ShloMosaic.PureOps.Reduce

noncomputable section

namespace Cert.ReferenceIdeal.RefValue

open Cert.ReferenceIdeal Cert.ReferenceIdeal.Gen Cert.ReferenceIdeal.Read Cert.Attn
open Idealize.ShloMosaic Idealize.ShloMosaic.ValueIdx Idealize.ShloMosaic.StableHlo

variable (Q V : (⟨S8x2048x128, .f32⟩ : BufTy).Contents (Elt Ideal))
variable (G : (⟨S8x2048x2048, .f32⟩ : BufTy).Contents (Elt Ideal))

/-! ## The row of the specification at (b, t) -/

/-- The query row (b, t). -/
abbrev qRow (b : Fin 8) (t : Fin 2048) : Fin 128 → EReal := fun k => Q (ix3 b t k)
/-- The value rows of batch b. -/
abbrev vRows (b : Fin 8) : Fin 2048 → Fin 128 → EReal := fun s k => V (ix3 b s k)
/-- The noise row (b, t). -/
abbrev gRow (b : Fin 8) (t : Fin 2048) : Fin 2048 → EReal := fun s => G (ix3 b t s)
/-- The scaled logits of row (b, t). -/
abbrev zRow (b : Fin 8) (t : Fin 2048) : Fin 2048 → EReal := scaledAt (qRow Q b t) (vRows V b) (gRow G b t)

/-! ## The index functions of the generated read lemmas, by coordinates -/

theorem lidx_v0 (b : Fin 8) (t s : Fin 2048) (k : Fin 128) : lidx_main_v0 (ix3 b t s) k = ix3 b t k :=
  funext fun a => Fin.ext (by match a with | ⟨0, _⟩ => rfl | ⟨1, _⟩ => rfl | ⟨2, _⟩ => rfl)

theorem ridx_v0 (b : Fin 8) (t s : Fin 2048) (k : Fin 128) : ridx_main_v0 (ix3 b t s) k = ix3 b s k :=
  funext fun a => Fin.ext (by match a with | ⟨0, _⟩ => rfl | ⟨1, _⟩ => rfl | ⟨2, _⟩ => rfl)

theorem idx_v78 (b : Fin 8) (t s : Fin 2048) : idx_main_v7 (idx_main_v8 (ix3 b t s)) = ix2 b t :=
  funext fun a => Fin.ext (by match a with | ⟨0, _⟩ => rfl | ⟨1, _⟩ => rfl)

theorem idx_v11 (b : Fin 8) (t s : Fin 2048) : idx_main_v11 (ix2 b t) s = ix3 b t s :=
  funext fun a => Fin.ext (by match a with | ⟨0, _⟩ => rfl | ⟨1, _⟩ => rfl | ⟨2, _⟩ => rfl)

theorem idx_v1213 (b : Fin 8) (t s : Fin 2048) : idx_main_v12 (idx_main_v13 (ix3 b t s)) = ix2 b t :=
  funext fun a => Fin.ext (by match a with | ⟨0, _⟩ => rfl | ⟨1, _⟩ => rfl)

theorem lidx_v15 (b : Fin 8) (t : Fin 2048) (h : Fin 128) (s : Fin 2048) : lidx_main_v15 (ix3 b t h) s = ix3 b t s :=
  funext fun a => Fin.ext (by match a with | ⟨0, _⟩ => rfl | ⟨1, _⟩ => rfl | ⟨2, _⟩ => rfl)

theorem ridx_v15 (b : Fin 8) (t : Fin 2048) (h : Fin 128) (s : Fin 2048) : ridx_main_v15 (ix3 b t h) s = ix3 b s h :=
  funext fun a => Fin.ext (by match a with | ⟨0, _⟩ => rfl | ⟨1, _⟩ => rfl | ⟨2, _⟩ => rfl)

/-- The reduced index (b, t) with key k put back on the last axis is (b, t, k). -/
theorem lift_ix3 (h : S8x2048x2048.Reduces [2] S8x2048) (b : Fin 8) (t : Fin 2048) (k : Fin (S8x2048x2048.size 2)) :
    h.lift (ix2 b t) k = ix3 b t (⟨k.val, k.isLt⟩ : Fin 2048) :=
  funext fun a => Fin.ext (by match a with | ⟨0, _⟩ => rfl | ⟨1, _⟩ => rfl | ⟨2, _⟩ => rfl)

/-! ## The stages, read at coordinates -/

/-- The logits at (b, t, s): the inner product of query row (b, t) with value row (b, s). -/
theorem v0_at (b : Fin 8) (t s : Fin 2048) :
    val_main_v0 (F := Ideal) Q V (ix3 b t s) = dotRow (qRow Q b t) (vRows V b s) := by
  rw [val_main_v0_apply]
  unfold dotRow
  refine Finset.sum_congr rfl fun k _ => ?_
  rw [lidx_v0, ridx_v0]

/-- The scaled logits at (b, t, s). -/
theorem v3_at (b : Fin 8) (t s : Fin 2048) :
    val_main_v3 (F := Ideal) Q V G (ix3 b t s) = zRow Q V G b t s := by
  rw [val_main_v3_apply, val_main_v1_apply, v0_at, val_main_v2_apply, val_main_cst_apply, Ideal.hostDivf_def,
    Ideal.addf_def, Ideal.ofBits_def, Cert.Attn.div_tau]
  rfl

/-- The fold of the row maximum at (b, t): started from −∞ over the keys of the scaled row. -/
theorem v4_at (b : Fin 8) (t : Fin 2048) :
    val_main_v4 (F := Ideal) Q V G (ix2 b t) = rowMax (zRow Q V G b t) := by
  unfold val_main_v4
  have hr : S8x2048x2048.Reduces [2] S8x2048 := by decide
  rw [Host.reduce_eq_fold_single FloatOps.maximumf _ _ reducesTo_S8x2048x2048_S8x2048_d2 hr h_S_]
  have hf : (val_main_v3 (F := Ideal) Q V G ∘ hr.lift (ix2 b t)) = zRow Q V G b t :=
    funext fun k => (congrArg (val_main_v3 (F := Ideal) Q V G) (lift_ix3 hr b t k)).trans (v3_at Q V G b t _)
  rw [hf, val_main_cst_0_apply, Ideal.ofBits_def, Cert.Attn.ofBits_negInf]
  rfl

/-- The row maximum at (b, t): one more maximum with −∞ changes nothing. -/
theorem v6_at (b : Fin 8) (t : Fin 2048) :
    val_main_v6 (F := Ideal) Q V G (ix2 b t) = rowMax (zRow Q V G b t) := by
  rw [val_main_v6_apply, val_main_v5_apply, val_main_cst_1_apply, v4_at, Ideal.maximumf_def, Ideal.ofBits_def,
    Cert.Attn.max_negInf]

/-- The row maximum, broadcast back along the keys. -/
theorem v8_at (b : Fin 8) (t s : Fin 2048) :
    val_main_v8 (F := Ideal) Q V G (ix3 b t s) = rowMax (zRow Q V G b t) := by
  rw [val_main_v8_apply, val_main_v7_apply, idx_v78, v6_at]

/-- The shifted exponential at (b, t, s). -/
theorem v10_at (b : Fin 8) (t s : Fin 2048) :
    val_main_v10 (F := Ideal) Q V G (ix3 b t s) = expAt (zRow Q V G b t) s := by
  rw [val_main_v10_apply, val_main_v9_apply, v3_at, v8_at, Ideal.hostUnary_exp_def, Ideal.subf_def]
  rfl

/-- The softmax denominator at (b, t): the sum, from 0, of the shifted exponentials over the keys. -/
theorem v11_at (b : Fin 8) (t : Fin 2048) :
    val_main_v11 (F := Ideal) Q V G (ix2 b t) = denom (zRow Q V G b t) := by
  rw [val_main_v11_apply, val_main_cst_2_apply, Ideal.ofBits_def, Ideal.ofBits_zero_f32, zero_add]
  unfold denom
  refine Finset.sum_congr rfl fun s _ => ?_
  rw [idx_v11, v10_at]

/-- The denominator, broadcast back along the keys. -/
theorem v13_at (b : Fin 8) (t s : Fin 2048) :
    val_main_v13 (F := Ideal) Q V G (ix3 b t s) = denom (zRow Q V G b t) := by
  rw [val_main_v13_apply, val_main_v12_apply, idx_v1213, v11_at]

/-- The softmax weight at (b, t, s). -/
theorem v14_at (b : Fin 8) (t s : Fin 2048) :
    val_main_v14 (F := Ideal) Q V G (ix3 b t s) = probAt (zRow Q V G b t) s := by
  rw [val_main_v14_apply, v10_at, v13_at, Ideal.hostDivf_def]
  rfl

/-- The attention output at (b, t, h): the weights of row (b, t) against column h of batch b's values. -/
theorem v15_at (b : Fin 8) (t : Fin 2048) (h : Fin 128) :
    val_main_v15 (F := Ideal) Q V G (ix3 b t h) = attnEntry (qRow Q b t) (vRows V b) (gRow G b t) h := by
  rw [val_main_v15_apply]
  unfold attnEntry
  refine Finset.sum_congr rfl fun s _ => ?_
  rw [lidx_v15, ridx_v15, v14_at]

/-! ## The two results -/

/-- The reference's first result is the specification's logits array. -/
theorem logits_eq : Cert.ReferenceIdeal.Read.val_main_v0 (F := Ideal) Q V = Cert.Attn.logits Q V := by
  funext i
  obtain ⟨b, t, s, rfl⟩ : ∃ (b : Fin 8) (t s : Fin 2048), i = ix3 b t s := ⟨_, _, _, eq_ix3 i⟩
  exact v0_at Q V b t s

/-- The reference's second result is the specification's attention output array. -/
theorem attn_eq : Cert.ReferenceIdeal.Read.val_main_v15 (F := Ideal) Q V G = Cert.Attn.attnOut Q V G := by
  funext i
  obtain ⟨b, t, h, rfl⟩ : ∃ (b : Fin 8) (t : Fin 2048) (h : Fin 128), i = ix3 b t h := ⟨_, _, _, eq_ix3 i⟩
  exact v15_at Q V G b t h

end Cert.ReferenceIdeal.RefValue

end
-- ==== Proof.lean ====
/-
  Gumbel-softmax attention: a tiled kernel against its plain reference, equal as exact extended reals.

  Both programs take queries Q and values V (8 batches of 2048 rows of 128 entries) and noise G (8 × 2048 × 2048) and return the
  logits  L[b,t,s] = ∑ₖ Q[b,t,k]·V[b,s,k]  and the attention output  O[b,t,h] = ∑ₛ softmax_s((L[b,t,·] + G[b,t,·]) / τ)ₛ · V[b,s,h],
  the softmax evaluated with the row maximum subtracted.  The kernel works on a grid of 8 batches × 8 tiles of 256 query rows, each
  grid point holding its query tile, the whole value matrix of its batch and its noise tile, and multiplies by the constant 1/τ
  where the reference divides by τ (the single-precision number nearest 0.8).  With that constant read as the exact reciprocal of τ
  — division by a nonzero real is multiplication by its reciprocal on every extended real — the two programs apply the same
  operations in the same order to each row, the matrix products being plain sums of products at exact values.  No step uses that
  the inputs are finite: sums and products are only re-indexed, never redistributed.

  The modules: Spec (the row-wise function both sides compute), KernelPayload (the kernel body at one grid point is that function
  of its blocks), Blocks (the blocks tile the two result arrays), RefIsSpec (the reference's chain of whole-array operations is that
  function at every index); here the five claims are assembled.
-/
import proofs.«149607_j60962765799921_1_alg».proof.Defs
import proofs.«149607_j60962765799921_1_alg».proof.Proof.Gen.Kernel
import proofs.«149607_j60962765799921_1_alg».proof.Proof.Gen.Kernel.Skeleton
import proofs.«149607_j60962765799921_1_alg».proof.Proof.Gen.Kernel.Launch
import proofs.«149607_j60962765799921_1_alg».proof.Proof.Gen.Kernel.Points
import proofs.«149607_j60962765799921_1_alg».proof.Proof.Gen.Kernel.Frame
import proofs.«149607_j60962765799921_1_alg».proof.Proof.Gen.KernelIdeal
import proofs.«149607_j60962765799921_1_alg».proof.Proof.Gen.KernelIdeal.Skeleton
import proofs.«149607_j60962765799921_1_alg».proof.Proof.Gen.KernelIdeal.Launch
import proofs.«149607_j60962765799921_1_alg».proof.Proof.Gen.KernelIdeal.Points
import proofs.«149607_j60962765799921_1_alg».proof.Proof.Gen.KernelIdeal.Frame
import proofs.«149607_j60962765799921_1_alg».proof.Proof.Gen.ReferenceIdeal
import proofs.«149607_j60962765799921_1_alg».proof.Proof.Gen.Pre_finite_inputs
import proofs.«149607_j60962765799921_1_alg».proof.Proof.Gen.KernelIdeal.Value
import proofs.«149607_j60962765799921_1_alg».proof.Proof.Gen.ReferenceIdeal.Run
import proofs.«149607_j60962765799921_1_alg».proof.Proof.Gen.ReferenceIdeal.Read
import proofs.«149607_j60962765799921_1_alg».proof.Proof.Spec
import proofs.«149607_j60962765799921_1_alg».proof.Proof.KernelPayload
import proofs.«149607_j60962765799921_1_alg».proof.Proof.Blocks
import proofs.«149607_j60962765799921_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference is a straight line of whole-array operations: it terminates, and writes only its own results. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewritten constant: the kernel's 1.25 is read as 2²⁴ / 13421773, the exact reciprocal of τ. -/
theorem preserves : Cert.preserves_Kernel_KernelIdeal :=
  IdealRules.named_const.statement Cert.KernelIdeal.κ "inv_tau" .f32 0x3FA00000#32 ((16777216 / 13421773 : ℝ) : EReal) rfl

/-- From memories agreeing on Q, V and G both programs end with the attention output and the logits of the specification. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefValue.attn_eq, (hagree c).1, (hagree c).2.1, (hagree c).2.2]
  · rw [Cert.ReferenceIdeal.Read.val_main_v0_eq, Cert.ReferenceIdeal.RefValue.logits_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
